-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x3 : Shape := ⟨2, ![50000, 3]⟩
abbrev S50000x16x3 : Shape := ⟨3, ![50000, 16, 3]⟩
abbrev S50000x16x256 : Shape := ⟨3, ![50000, 16, 256]⟩
abbrev S50000x256 : Shape := ⟨2, ![50000, 256]⟩
abbrev S512x256 : Shape := ⟨2, ![512, 256]⟩
abbrev S256 : Shape := ⟨1, ![256]⟩
abbrev S256x256 : Shape := ⟨2, ![256, 256]⟩
abbrev S_ : Shape := ⟨0, ![]⟩

class Facts : Prop where
  bcast_S_S50000x3 : S_.BroadcastsInDim S50000x3 (![] : Fin 0 → Fin S50000x3.rank)
  reducesTo_S50000x3_S_d0_1 : S50000x3.ReducesTo [0, 1] S_
  h_S_ : 0 < S_.numel
  bcast_S_S50000x16x3 : S_.BroadcastsInDim S50000x16x3 (![] : Fin 0 → Fin S50000x16x3.rank)
  reducesTo_S50000x16x3_S_d0_1_2 : S50000x16x3.ReducesTo [0, 1, 2] S_
  bcast_S_S50000x16x256 : S_.BroadcastsInDim S50000x16x256 (![] : Fin 0 → Fin S50000x16x256.rank)
  reducesTo_S50000x16x256_S_d0_1_2 : S50000x16x256.ReducesTo [0, 1, 2] S_
  bcast_S_S50000x256 : S_.BroadcastsInDim S50000x256 (![] : Fin 0 → Fin S50000x256.rank)
  reducesTo_S50000x256_S_d0_1 : S50000x256.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part2 {F : FTy → Type} [FloatOps F] (main_arg7 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg4 : FVec F S512x256 .f32) (main_arg5 : FVec F S256 .f32) (main_arg6 : FVec F S256x256 .f32) (main_arg7 : FVec F S256 .f32) (main_v13 : IVec S_ 1) (main_v16 : IVec S50000x256 1) : IVec S_ 1 :=
  let main_c_5 : IVec S_ 1 := constantI S_ 1 1#1
  let main_v17 : IVec S_ 1 := (fun x v => Host.reduce IntOp.andi x v reducesTo_S50000x256_S_d0_1 h_S_) main_v16 main_c_5
  let main_v18 : IVec S_ 1 := andi main_v13 main_v17
  let main_v19 : FVec F S512x256 .f32 := Host.absf main_arg4
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_v33

def fn {F : FTy → Type} [FloatOps F] (main_arg0 : FVec F S50000x3 .f32) (main_arg1 : FVec F S50000x16x3 .f32) (main_arg2 : FVec F S50000x16x256 .f32) (main_arg3 : FVec F S50000x256 .f32) (main_arg4 : FVec F S512x256 .f32) (main_arg5 : FVec F S256 .f32) (main_arg6 : FVec F S256x256 .f32) (main_arg7 : FVec F S256 .f32) : IVec S_ 1 :=
  let main_v0 : FVec F S50000x3 .f32 := Host.absf main_arg0
  let main_cst : FVec F S_ .f32 := constant S_ .f32 0x7F800000#32
  let main_v1 : FVec F S50000x3 .f32 := broadcastInDim S50000x3 ![] bcast_S_S50000x3 main_cst
  let main_v2 : IVec S50000x3 1 := cmpf .olt main_v0 main_v1
  let main_c : IVec S_ 1 := constantI S_ 1 1#1
  let main_v3 : IVec S_ 1 := (fun x v => Host.reduce IntOp.andi x v reducesTo_S50000x3_S_d0_1 h_S_) main_v2 main_c
  let main_v4 : FVec F S50000x16x3 .f32 := Host.absf main_arg1
  let main_cst_0 : FVec F S_ .f32 := constant S_ .f32 0x7F800000#32
  let main_v5 : FVec F S50000x16x3 .f32 := broadcastInDim S50000x16x3 ![] bcast_S_S50000x16x3 main_cst_0
  let main_v6 : IVec S50000x16x3 1 := cmpf .olt main_v4 main_v5
  let main_c_1 : IVec S_ 1 := constantI S_ 1 1#1
  let main_v7 : IVec S_ 1 := (fun x v => Host.reduce IntOp.andi x v reducesTo_S50000x16x3_S_d0_1_2 h_S_) main_v6 main_c_1
  let main_v8 : IVec S_ 1 := andi main_v3 main_v7
  let main_v9 : FVec F S50000x16x256 .f32 := Host.absf main_arg2
  let main_cst_2 : FVec F S_ .f32 := constant S_ .f32 0x7F800000#32
  let main_v10 : FVec F S50000x16x256 .f32 := broadcastInDim S50000x16x256 ![] bcast_S_S50000x16x256 main_cst_2
  let main_v11 : IVec S50000x16x256 1 := cmpf .olt main_v9 main_v10
  let main_c_3 : IVec S_ 1 := constantI S_ 1 1#1
  let main_v12 : IVec S_ 1 := (fun x v => Host.reduce IntOp.andi x v reducesTo_S50000x16x256_S_d0_1_2 h_S_) main_v11 main_c_3
  let main_v13 : IVec S_ 1 := andi main_v8 main_v12
  let main_v14 : FVec F S50000x256 .f32 := Host.absf main_arg3
  let main_cst_4 : FVec F S_ .f32 := constant S_ .f32 0x7F800000#32
  let main_v15 : FVec F S50000x256 .f32 := broadcastInDim S50000x256 ![] bcast_S_S50000x256 main_cst_4
  let main_v16 : IVec S50000x256 1 := cmpf .olt main_v14 main_v15
  fn_part1 (F := F) main_arg4 main_arg5 main_arg6 main_arg7 main_v13 main_v16
-- ==== Kernel.lean ====
abbrev S50000x3 : Shape := ⟨2, ![50000, 3]⟩
abbrev S50000x16x3 : Shape := ⟨3, ![50000, 16, 3]⟩
abbrev S50000x16x256 : Shape := ⟨3, ![50000, 16, 256]⟩
abbrev S50000x256 : Shape := ⟨2, ![50000, 256]⟩
abbrev S512x256 : Shape := ⟨2, ![512, 256]⟩
abbrev S256 : Shape := ⟨1, ![256]⟩
abbrev S256x256 : Shape := ⟨2, ![256, 256]⟩
abbrev S1x256 : Shape := ⟨2, ![1, 256]⟩
abbrev S1000x3 : Shape := ⟨2, ![1000, 3]⟩
abbrev S1000x16x3 : Shape := ⟨3, ![1000, 16, 3]⟩
abbrev S1000x16x256 : Shape := ⟨3, ![1000, 16, 256]⟩
abbrev S1000x256 : Shape := ⟨2, ![1000, 256]⟩

abbrev nBuf : Space → Nat
  | .hbm => 17
  | .vmem => 17
  | .smem => 0
  | _ => 0

abbrev bufTy : (tb : Table) → Fin (tcTables nBuf tb) → BufTy
  | .hbm, ⟨0, _⟩ => ⟨S50000x3, .f32⟩
  | .hbm, ⟨1, _⟩ => ⟨S50000x16x3, .f32⟩
  | .hbm, ⟨2, _⟩ => ⟨S50000x16x256, .f32⟩
  | .hbm, ⟨3, _⟩ => ⟨S50000x256, .f32⟩
  | .hbm, ⟨4, _⟩ => ⟨S512x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256x256, .bf16⟩
  | .hbm, ⟨10, _⟩ => ⟨S256x256, .f32⟩
  | .hbm, ⟨11, _⟩ => ⟨S256x256, .bf16⟩
  | .hbm, ⟨12, _⟩ => ⟨S256x256, .bf16⟩
  | .hbm, ⟨13, _⟩ => ⟨S1x256, .f32⟩
  | .hbm, ⟨14, _⟩ => ⟨S1x256, .f32⟩
  | .hbm, ⟨15, _⟩ => ⟨S50000x3, .f32⟩
  | .hbm, ⟨16, _⟩ => ⟨S50000x256, .f32⟩
  | .local _ .vmem, ⟨0, _⟩ => ⟨S1000x3, .f32⟩
  | .local _ .vmem, ⟨1, _⟩ => ⟨S1000x3, .f32⟩
  | .local _ .vmem, ⟨2, _⟩ => ⟨S1000x16x3, .f32⟩
  | .local _ .vmem, ⟨3, _⟩ => ⟨S1000x16x3, .f32⟩
  | .local _ .vmem, ⟨4, _⟩ => ⟨S1000x16x256, .f32⟩
  | .local _ .vmem, ⟨5, _⟩ => ⟨S1000x16x256, .f32⟩
  | .local _ .vmem, ⟨6, _⟩ => ⟨S1000x256, .f32⟩
  | .local _ .vmem, ⟨7, _⟩ => ⟨S1000x256, .f32⟩
  | .local _ .vmem, ⟨8, _⟩ => ⟨S256x256, .bf16⟩
  | .local _ .vmem, ⟨9, _⟩ => ⟨S256x256, .bf16⟩
  | .local _ .vmem, ⟨10, _⟩ => ⟨S1x256, .f32⟩
  | .local _ .vmem, ⟨11, _⟩ => ⟨S256x256, .bf16⟩
  | .local _ .vmem, ⟨12, _⟩ => ⟨S1x256, .f32⟩
  | .local _ .vmem, ⟨13, _⟩ => ⟨S1000x3, .f32⟩
  | .local _ .vmem, ⟨14, _⟩ => ⟨S1000x3, .f32⟩
  | .local _ .vmem, ⟨15, _⟩ => ⟨S1000x256, .f32⟩
  | .local _ .vmem, ⟨16, _⟩ => ⟨S1000x256, .f32⟩
  | _, _ => ⟨S50000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x16x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1000x3 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1000x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S512x256_S256x256_0_0 : S512x256.Slices ![0, 0] S256x256
  bitsLt_bf16_f32 : FTy.bits .bf16 < FTy.bits .f32
  slices_S512x256_S256x256_256_0 : S512x256.Slices ![256, 0] S256x256
  shapeCasts_S256_S1x256 : S256.ShapeCasts S1x256
  inb_S1000x3_S1000x3_0_0 : ∀ a, (![0, 0] : Fin 2 → Nat) a + S1000x3.size a ≤ S1000x3.size a
  h_S1000x3 : 0 < S1000x3.numel
  inb_S1000x16x3_S1000x16x3_0_0_0 : ∀ a, (![0, 0, 0] : Fin 3 → Nat) a + S1000x16x3.size a ≤ S1000x16x3.size a
  h_S1000x16x3 : 0 < S1000x16x3.numel
  reduces_S1000x16x3_S1000x3 : S1000x16x3.Reduces [1] S1000x3
  inb_S1000x256_S1000x256_0_0 : ∀ a, (![0, 0] : Fin 2 → Nat) a + S1000x256.size a ≤ S1000x256.size a
  h_S1000x256 : 0 < S1000x256.numel
  inb_S1000x16x256_S1000x16x256_0_0_0 : ∀ a, (![0, 0, 0] : Fin 3 → Nat) a + S1000x16x256.size a ≤ S1000x16x256.size a
  h_S1000x16x256 : 0 < S1000x16x256.numel
  reduces_S1000x16x256_S1000x256 : S1000x16x256.Reduces [1] S1000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  dot_S1000x256_S256x256_S1000x256_1_0_0_1_n_n_wf : DotDims.WF S1000x256 S256x256 S1000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x3.size a ≤ S50000x3.size a
  hwx0_0 : ∀ i : grid0.Coords, EltTy.bits .f32 = 32 ∨ (Rect.block (s := S50000x3) S1000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x16x3.size a ≤ S50000x16x3.size a
  hwx0_1 : ∀ i : grid0.Coords, EltTy.bits .f32 = 32 ∨ (Rect.block (s := S50000x16x3) S1000x16x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x16x256.size a ≤ S50000x16x256.size a
  hwx0_2 : ∀ i : grid0.Coords, EltTy.bits .f32 = 32 ∨ (Rect.block (s := S50000x16x256) S1000x16x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x256.size a ≤ S50000x256.size a
  hwx0_3 : ∀ i : grid0.Coords, EltTy.bits .f32 = 32 ∨ (Rect.block (s := S50000x256) S1000x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .bf16 = 32 ∨ (Rect.block (s := S256x256) S256x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1000x3.size a ≤ S50000x3.size a
  hwx0_9 : ∀ i : grid0.Coords, EltTy.bits .f32 = 32 ∨ (Rect.block (s := S50000x3) S1000x3.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1000x256.size a ≤ S50000x256.size a
  hwx0_10 : ∀ i : grid0.Coords, EltTy.bits .f32 = 32 ∨ (Rect.block (s := S50000x256) S1000x256.size (cc0_transform_10 i) (hinb0_10 i)).WholeWords (EltTy.packing .f32)

variable [Facts₀]

def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf

abbrev win0_0 : Pipeline.Window sig grid0 :=
  Pipeline.Window.ofSpec (Memref.whole main_arg0) S1000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x16x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1000x16x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1000x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7_0) S1000x3.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v7_1) S1000x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S50000x3 : Shape := ⟨2, ![50000, 3]⟩
abbrev S50000x16x3 : Shape := ⟨3, ![50000, 16, 3]⟩
abbrev S50000x16x256 : Shape := ⟨3, ![50000, 16, 256]⟩
abbrev S50000x256 : Shape := ⟨2, ![50000, 256]⟩
abbrev S512x256 : Shape := ⟨2, ![512, 256]⟩
abbrev S256 : Shape := ⟨1, ![256]⟩
abbrev S256x256 : Shape := ⟨2, ![256, 256]⟩
abbrev S_ : Shape := ⟨0, ![]⟩
abbrev S50000x512 : Shape := ⟨2, ![50000, 512]⟩
abbrev S1x256 : Shape := ⟨2, ![1, 256]⟩

abbrev nBuf : Space → Nat
  | .hbm => 51
  | .vmem => 0
  | .smem => 0
  | _ => 0

abbrev bufTy : (tb : Table) → Fin (tcTables nBuf tb) → BufTy
  | .hbm, ⟨0, _⟩ => ⟨S50000x3, .f32⟩
  | .hbm, ⟨1, _⟩ => ⟨S50000x16x3, .f32⟩
  | .hbm, ⟨2, _⟩ => ⟨S50000x16x256, .f32⟩
  | .hbm, ⟨3, _⟩ => ⟨S50000x256, .f32⟩
  | .hbm, ⟨4, _⟩ => ⟨S512x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S50000x3, .f32⟩
  | .hbm, ⟨12, _⟩ => ⟨S50000x3, .f32⟩
  | .hbm, ⟨13, _⟩ => ⟨S_, .f32⟩
  | .hbm, ⟨14, _⟩ => ⟨S50000x3, .f32⟩
  | .hbm, ⟨15, _⟩ => ⟨S50000x3, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S50000x16x3, .f32⟩
  | .hbm, ⟨20, _⟩ => ⟨S50000x16x3, .f32⟩
  | .hbm, ⟨21, _⟩ => ⟨S_, .f32⟩
  | .hbm, ⟨22, _⟩ => ⟨S50000x16x3, .f32⟩
  | .hbm, ⟨23, _⟩ => ⟨S50000x16x3, .f32⟩
  | .hbm, ⟨24, _⟩ => ⟨S_, .f32⟩
  | .hbm, ⟨25, _⟩ => ⟨S50000x3, .f32⟩
  | .hbm, ⟨26, _⟩ => ⟨S_, .f32⟩
  | .hbm, ⟨27, _⟩ => ⟨S50000x3, .f32⟩
  | .hbm, ⟨28, _⟩ => ⟨S50000x3, .f32⟩
  | .hbm, ⟨29, _⟩ => ⟨S50000x3, .f32⟩
  | .hbm, ⟨30, _⟩ => ⟨S_, .f32⟩
  | .hbm, ⟨31, _⟩ => ⟨S50000x256, .f32⟩
  | .hbm, ⟨32, _⟩ => ⟨S50000x512, .f32⟩
  | .hbm, ⟨33, _⟩ => ⟨S50000x256, .f32⟩
  | .hbm, ⟨34, _⟩ => ⟨S1x256, .f32⟩
  | .hbm, ⟨35, _⟩ => ⟨S50000x256, .f32⟩
  | .hbm, ⟨36, _⟩ => ⟨S50000x256, .f32⟩
  | .hbm, ⟨37, _⟩ => ⟨S50000x256, .f32⟩
  | .hbm, ⟨38, _⟩ => ⟨S50000x256, .f32⟩
  | .hbm, ⟨39, _⟩ => ⟨S_, .f32⟩
  | .hbm, ⟨40, _⟩ => ⟨S50000x256, .f32⟩
  | .hbm, ⟨41, _⟩ => ⟨S50000x256, .f32⟩
  | .hbm, ⟨42, _⟩ => ⟨S_, .f32⟩
  | .hbm, ⟨43, _⟩ => ⟨S50000x256, .f32⟩
  | .hbm, ⟨44, _⟩ => ⟨S50000x256, .f32⟩
  | .hbm, ⟨45, _⟩ => ⟨S50000x256, .f32⟩
  | .hbm, ⟨46, _⟩ => ⟨S50000x256, .f32⟩
  | .hbm, ⟨47, _⟩ => ⟨S1x256, .f32⟩
  | .hbm, ⟨48, _⟩ => ⟨S50000x256, .f32⟩
  | .hbm, ⟨49, _⟩ => ⟨S50000x256, .f32⟩
  | .hbm, ⟨50, _⟩ => ⟨S50000x256, .f32⟩
  | _, _ => ⟨S50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v0 : Ref sig .tc := ⟨.hbm, 15, rfl⟩
abbrev main_cst_1 : Ref sig .tc := ⟨.hbm, 16, rfl⟩
abbrev main_cst_2 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v1 : Ref sig .tc := ⟨.hbm, 23, rfl⟩
abbrev main_cst_3 : Ref sig .tc := ⟨.hbm, 24, rfl⟩
abbrev main_v2 : Ref sig .tc := ⟨.hbm, 25, rfl⟩
abbrev main_cst_4 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_cst_5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_call2_v0 : Ref sig .tc := ⟨.hbm, 37, rfl⟩
abbrev main_call2_v1 : Ref sig .tc := ⟨.hbm, 38, rfl⟩
abbrev main_call2_cst : Ref sig .tc := ⟨.hbm, 39, rfl⟩
abbrev main_call2_v2 : Ref sig .tc := ⟨.hbm, 40, rfl⟩
abbrev main_call2_v3 : Ref sig .tc := ⟨.hbm, 41, rfl⟩
abbrev main_call2_cst_0 : Ref sig .tc := ⟨.hbm, 42, rfl⟩
abbrev main_call2_v4 : Ref sig .tc := ⟨.hbm, 43, rfl⟩
abbrev main_call2_v5 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩

abbrev nD : Nat := 1
abbrev τ : Topo := Topo.v7x

variable {F : FTy → Type} [FloatOps F]

class Facts₀ : Prop where
  bcast_S_S50000x3 : S_.BroadcastsInDim S50000x3 (![] : Fin 0 → Fin S50000x3.rank)
  bcast_S_S50000x16x3 : S_.BroadcastsInDim S50000x16x3 (![] : Fin 0 → Fin S50000x16x3.rank)
  reducesTo_S50000x16x3_S50000x3_d1 : S50000x16x3.ReducesTo [1] S50000x3
  h_S_ : 0 < S_.numel
  reducesTo_S50000x16x256_S50000x256_d1 : S50000x16x256.ReducesTo [1] S50000x256
  concatenates_S50000x256_S50000x256_S50000x512_d1 : Shape.Concatenates [S50000x256, S50000x256] S50000x512 1
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  dot_S50000x512_S512x256_S50000x256_1_0_0_1_n_n_wf : DotDims.WF S50000x512 S512x256 S50000x256 [1] [0] [0] [1] [] []
  dot_S50000x256_S256x256_S50000x256_1_0_0_1_n_n_wf : DotDims.WF S50000x256 S256x256 S50000x256 [1] [0] [0] [1] [] []

variable [Facts₀]

def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.Spec.lean ====
/-
  The layer's two results as functions of its eight argument arrays, entry by entry, on the extended reals.

  Node coordinates. With clamp v = min 1000 (max (-1000) v),
      coord[n, c] = clamp x[n, c] + (Σ_{k<16} clamp trans[n, k, c]) / 16:
  a node's clamped position plus the mean of its sixteen clamped message translations.

  Node features. The sixteen incoming edge features of node n are summed entry by entry (its mailbox),
      mail[n, q] = Σ_{r<16} edge[n, r, q];
  a hidden layer reads the node's own features and its mailbox side by side,
      p[n, k] = (Σ_{q<256} hh[n, q] · W1[q, k] + Σ_{q<256} mail[n, q] · W1[256 + q, k]) + b1[k],
  passes through silu v = v · logistic v, a second linear layer, and a residual connection:
      h[n, j] = hh[n, j] + ((Σ_{k<256} silu p[n, k] · W2[k, j]) + b2[j]).

  Written with the two halves of W1 apart, p is how a kernel that never forms the concatenation [hh | mail]
  computes it; the product of that concatenation with the whole of W1 is the same number because a sum over
  512 indices is the sum over its first 256 plus the sum over its last 256 ('sum_halves') - a regrouping of
  one finite sum, valid in every commutative additive monoid, so also where entries are infinite.

  The words of 1000.0, -1000.0 and 16.0 are kept as words: every program that is compared with these
  functions spells the same words, so their values are never needed. The word of 1.0 is read once ('one_word'):
  the logistic function is 1 / (1 + exp (-v)) with the numeral 1.
-/
import Idealize.ShloMosaic.PureOps.Ideal
import Idealize.ShloMosaic.Lib.ValueIdx
import Mathlib.Algebra.BigOperators.Fin

noncomputable section

namespace Cert.Layer

open Idealize.ShloMosaic Idealize.ShloMosaic.ValueIdx

/-- Arrays of rank one, two and three with extended-real entries, over literal extents. -/
abbrev Arr1 (a : Nat) : Type := (⟨1, ![a]⟩ : Shape).Idx → EReal
abbrev Arr2 (a b : Nat) : Type := (⟨2, ![a, b]⟩ : Shape).Idx → EReal
abbrev Arr3 (a b c : Nat) : Type := (⟨3, ![a, b, c]⟩ : Shape).Idx → EReal

/-- The f32 words of 1000.0, -1000.0 and 16.0. -/
abbrev upper : EReal := Ideal.ofBits .f32 0x447A0000#32
abbrev lower : EReal := Ideal.ofBits .f32 0xC47A0000#32
abbrev sixteen : EReal := Ideal.ofBits .f32 0x41800000#32

/-- A value clamped to the interval between the two bounds. -/
def clamp (v : EReal) : EReal := min upper (max lower v)

/-- Entry (n, c) of the new coordinates: the clamped position plus the mean of the clamped translations. -/
def coordAt (x : Arr2 50000 3) (tr : Arr3 50000 16 3) (n : Fin 50000) (c : Fin 3) : EReal :=
  clamp (x (ix2 n c)) + Ideal.div (∑ k : Fin 16, clamp (tr (ix3 n k c))) sixteen

/-- Entry (n, q) of the mailbox: the sum of node n's sixteen incoming edge features. -/
def mailAt (e : Arr3 50000 16 256) (n : Fin 50000) (q : Fin 256) : EReal := ∑ r : Fin 16, e (ix3 n r q)

/-- Row q of the upper half of a 512-row matrix, and row q of its lower half. -/
def firstHalf (q : Fin 256) : Fin 512 := ⟨q.val, by omega⟩
def secondHalf (q : Fin 256) : Fin 512 := ⟨256 + q.val, by omega⟩

/-- Entry (n, k) of the hidden layer before its activation. -/
def hiddenAt (hh : Arr2 50000 256) (e : Arr3 50000 16 256) (W1 : Arr2 512 256) (b1 : Arr1 256)
    (n : Fin 50000) (k : Fin 256) : EReal :=
  ((∑ q : Fin 256, hh (ix2 n q) * W1 (ix2 (firstHalf q) k))
    + ∑ q : Fin 256, mailAt e n q * W1 (ix2 (secondHalf q) k)) + b1 (ix1 k)

/-- The activation: v · logistic v. -/
def silu (v : EReal) : EReal := v * Ideal.logistic v

/-- Entry (n, j) of the new features. -/
def featAt (hh : Arr2 50000 256) (e : Arr3 50000 16 256) (W1 : Arr2 512 256) (b1 : Arr1 256)
    (W2 : Arr2 256 256) (b2 : Arr1 256) (n : Fin 50000) (j : Fin 256) : EReal :=
  hh (ix2 n j) + ((∑ k : Fin 256, silu (hiddenAt hh e W1 b1 n k) * W2 (ix2 k j)) + b2 (ix1 j))

/-- The two results as whole arrays. -/
def coordArr (x : Arr2 50000 3) (tr : Arr3 50000 16 3) : Arr2 50000 3 :=
  fun i => coordAt x tr ⟨(i 0).val, (i 0).isLt⟩ ⟨(i 1).val, (i 1).isLt⟩

def featArr (hh : Arr2 50000 256) (e : Arr3 50000 16 256) (W1 : Arr2 512 256) (b1 : Arr1 256)
    (W2 : Arr2 256 256) (b2 : Arr1 256) : Arr2 50000 256 :=
  fun i => featAt hh e W1 b1 W2 b2 ⟨(i 0).val, (i 0).isLt⟩ ⟨(i 1).val, (i 1).isLt⟩

theorem coordArr_apply (x : Arr2 50000 3) (tr : Arr3 50000 16 3) (n : Fin 50000) (c : Fin 3) :
    coordArr x tr (ix2 n c) = coordAt x tr n c := rfl

theorem featArr_apply (hh : Arr2 50000 256) (e : Arr3 50000 16 256) (W1 : Arr2 512 256) (b1 : Arr1 256)
    (W2 : Arr2 256 256) (b2 : Arr1 256) (n : Fin 50000) (j : Fin 256) :
    featArr hh e W1 b1 W2 b2 (ix2 n j) = featAt hh e W1 b1 W2 b2 n j := rfl

/-- A sum over 512 indices is the sum over the first 256 plus the sum over the last 256. -/
theorem sum_halves (f : Fin 512 → EReal) :
    ∑ k : Fin 512, f k = (∑ q : Fin 256, f (firstHalf q)) + ∑ q : Fin 256, f (secondHalf q) :=
  Fin.sum_univ_add (a := 256) (b := 256) f

/-- The f32 word of 1.0 is the number one. -/
theorem one_word : Ideal.ofBits .f32 0x3F800000#32 = 1 := by
  simp [Ideal.ofBits, Ideal.ieee, -EReal.coe_mul]
  norm_num

/-- The logistic function spelt with its negation, exponential, sum and quotient. -/
theorem logistic_spelt (v : EReal) : Ideal.div 1 (1 + Ideal.exp (-v)) = Ideal.logistic v := rfl

end Cert.Layer

end
-- ==== Proof.KernelBlock.lean ====
/-
  What the kernel body computes for ONE block of 1000 nodes, entry by entry.

  The body's arithmetic is three pure terms of the blocks it loads: the coordinates block, the hidden layer
  before its activation, and the features block over that hidden layer. Each is read here at an entry (r, ·) of
  the block, over arbitrary vectors of the loaded shapes:
    * a sum over the neighbour axis of a [1000, 16, ·] block at (r, c) is the sum of its sixteen entries
      (r, k, c) ('neighbourSum3', 'neighbourSum256');
    * a matrix product into a zero accumulator at (r, k) is Σ_q a[r, q] · w[q, k] ('productAt');
    * a [1, 256] row broadcast over the 1000 rows reads its one row.
  Casts between float formats are the identity on extended reals, and a reshape to the same shape is the identity.

  'coordBlock' and 'featBlock' then say: if every loaded block is the part of its whole array that belongs to
  rows T·1000 … T·1000 + 999 (for the weights and biases: the whole array, the two weight blocks of the first layer
  being the two halves of W1), the body's results at (r, ·) are the layer's functions 'coordAt' and 'featAt' at
  node n = T·1000 + r.
-/
import proofs.«126242_j15135464751166_1_alg».proof.Proof.Gen.KernelIdeal.Skeleton
import proofs.«126242_j15135464751166_1_alg».proof.Proof.Spec
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Block

open Cert.KernelIdeal Cert.KernelIdeal.Gen Idealize.ShloMosaic Idealize.ShloMosaic.ValueIdx Cert.Layer

/-! ## Sums over the neighbour axis -/

/-- The sum over the sixteen neighbours of a [1000, 16, 3] block, at (r, c). -/
theorem neighbourSum3 (v : FVec Ideal S1000x16x3 .f32) (r : Fin 1000) (c : Fin 3) :
    multiReduction .add [1] S1000x3 v 0x00000000#32 reduces_S1000x16x3_S1000x3 (.inl rfl) rfl (ix2 r c)
      = ∑ k : Fin 16, v (ix3 r k c) := by
  refine (Ideal.multiReduction_add_single v _ reduces_S1000x16x3_S1000x3 (.inl rfl) rfl (ix2 r c)).trans ?_
  refine Finset.sum_congr rfl fun k _ => ?_
  exact congrArg v (funext fun a => Fin.ext (by match a with | ⟨0, _⟩ => rfl | ⟨1, _⟩ => rfl | ⟨2, _⟩ => rfl))

/-- The sum over the sixteen neighbours of a [1000, 16, 256] block, at (r, q). -/
theorem neighbourSum256 (v : FVec Ideal S1000x16x256 .f32) (r : Fin 1000) (q : Fin 256) :
    multiReduction .add [1] S1000x256 v 0x00000000#32 reduces_S1000x16x256_S1000x256 (.inl rfl) rfl (ix2 r q)
      = ∑ k : Fin 16, v (ix3 r k q) := by
  refine (Ideal.multiReduction_add_single v _ reduces_S1000x16x256_S1000x256 (.inl rfl) rfl (ix2 r q)).trans ?_
  refine Finset.sum_congr rfl fun k _ => ?_
  exact congrArg v (funext fun a => Fin.ext (by match a with | ⟨0, _⟩ => rfl | ⟨1, _⟩ => rfl | ⟨2, _⟩ => rfl))

/-! ## The matrix product of a [1000, 256] block with a [256, 256] matrix -/

theorem lhs_row (i : S1000x256.Idx) (q : dot_S1000x256_S256x256_S1000x256_1_0_0_1_n_n.contr.Idx) :
    (dot_S1000x256_S256x256_S1000x256_1_0_0_1_n_n.lhsIdx i q 0).val = (i 0).val := by
  unfold DotDims.lhsIdx
  rw [dif_neg (show ¬(0 : Fin S1000x256.rank) ∈ dot_S1000x256_S256x256_S1000x256_1_0_0_1_n_n.lhsBatch by decide), dif_pos (show (0 : Fin S1000x256.rank) ∈ dot_S1000x256_S256x256_S1000x256_1_0_0_1_n_n.lhsNonContracting by decide)]
  rfl
theorem lhs_col (i : S1000x256.Idx) (q : dot_S1000x256_S256x256_S1000x256_1_0_0_1_n_n.contr.Idx) :
    (dot_S1000x256_S256x256_S1000x256_1_0_0_1_n_n.lhsIdx i q 1).val = (q ⟨0, by decide⟩).val :=
  dot_S1000x256_S256x256_S1000x256_1_0_0_1_n_n.lhsIdx_val_of_single rfl i q
theorem rhs_row (i : S1000x256.Idx) (q : dot_S1000x256_S256x256_S1000x256_1_0_0_1_n_n.contr.Idx) :
    (dot_S1000x256_S256x256_S1000x256_1_0_0_1_n_n.rhsIdx i q 0).val = (q ⟨0, by decide⟩).val :=
  dot_S1000x256_S256x256_S1000x256_1_0_0_1_n_n.rhsIdx_val_of_single rfl i q
theorem rhs_col (i : S1000x256.Idx) (q : dot_S1000x256_S256x256_S1000x256_1_0_0_1_n_n.contr.Idx) :
    (dot_S1000x256_S256x256_S1000x256_1_0_0_1_n_n.rhsIdx i q 1).val = (i 1).val := by
  unfold DotDims.rhsIdx
  rw [dif_neg (show ¬(1 : Fin S256x256.rank) ∈ dot_S1000x256_S256x256_S1000x256_1_0_0_1_n_n.rhsBatch by decide), dif_pos (show (1 : Fin S256x256.rank) ∈ dot_S1000x256_S256x256_S1000x256_1_0_0_1_n_n.rhsNonContracting by decide)]
  rfl

/-- A product into the zero accumulator, at (r, k): the row of the left factor against the column of the right. -/
theorem productAt (a : FVec Ideal S1000x256 .bf16) (w : FVec Ideal S256x256 .bf16) (r : Fin 1000) (k : Fin 256) :
    matmul dot_S1000x256_S256x256_S1000x256_1_0_0_1_n_n none a w (constant (F := Ideal) S1000x256 .f32 0x00000000#32) (ix2 r k)
      = ∑ q : Fin 256, a (ix2 r q) * w (ix2 q k) := by
  refine (Ideal.matmul_constant_zero_apply dot_S1000x256_S256x256_S1000x256_1_0_0_1_n_n none a w (ix2 r k)).trans ?_
  rw [← Equiv.sum_comp (ValueIdx.contrEquiv1 dot_S1000x256_S256x256_S1000x256_1_0_0_1_n_n 256 rfl rfl).symm]
  refine Finset.sum_congr rfl fun q _ => ?_
  have hq := ValueIdx.contrEquiv1_symm_val dot_S1000x256_S256x256_S1000x256_1_0_0_1_n_n 256 rfl rfl q
  have el : dot_S1000x256_S256x256_S1000x256_1_0_0_1_n_n.lhsIdx (ix2 r k) ((ValueIdx.contrEquiv1 dot_S1000x256_S256x256_S1000x256_1_0_0_1_n_n 256 rfl rfl).symm q) = ix2 r q := funext fun ax => Fin.ext (by
    match ax with
    | ⟨0, _⟩ => exact lhs_row _ _
    | ⟨1, _⟩ => exact (lhs_col _ _).trans hq)
  have er : dot_S1000x256_S256x256_S1000x256_1_0_0_1_n_n.rhsIdx (ix2 r k) ((ValueIdx.contrEquiv1 dot_S1000x256_S256x256_S1000x256_1_0_0_1_n_n 256 rfl rfl).symm q) = ix2 q k := funext fun ax => Fin.ext (by
    match ax with
    | ⟨0, _⟩ => exact (rhs_row _ _).trans hq
    | ⟨1, _⟩ => exact rhs_col _ _)
  rw [el, er]

/-- A bias row, reshaped to itself and broadcast over the 1000 rows, at (r, k). -/
theorem biasAt (b : FVec Ideal S1x256 .f32) (r : Fin 1000) (k : Fin 256) :
    broadcastTo S1000x256 (shapeCast S1x256 b shapeCasts_S1x256_S1x256) broadcasts_S1x256_S1000x256 (ix2 r k)
      = b (ix2 (0 : Fin 1) k) := by
  rw [shapeCast_self]
  exact broadcastTo_1b_ab_apply (a := 1000) (b := 256) b broadcasts_S1x256_S1000x256 r k

/-! ## The three pure terms of the body, as trees of vector operations -/

theorem coordTree (x0 : FVec Ideal S1000x3 .f32) (x1 : FVec Ideal S1000x16x3 .f32) :
    k0_pay2 (F := Ideal) x0 x1
      = addf (minimumf (broadcast S1000x3 (Scalar.ofBits .f32 0x447A0000#32)) (maximumf (broadcast S1000x3 (Scalar.ofBits .f32 0xC47A0000#32)) x0))
          (divf (multiReduction .add [1] S1000x3 (minimumf (broadcast S1000x16x3 (Scalar.ofBits .f32 0x447A0000#32)) (maximumf (broadcast S1000x16x3 (Scalar.ofBits .f32 0xC47A0000#32)) x1)) 0x00000000#32 reduces_S1000x16x3_S1000x3 (.inl rfl) rfl)
            (broadcast S1000x3 (Scalar.ofBits .f32 0x41800000#32))) := rfl

theorem hiddenTree (x3 : FVec Ideal S1000x256 .f32) (x2 : FVec Ideal S1000x16x256 .f32) (x4 x5 : FVec Ideal S256x256 .bf16) (x6 : FVec Ideal S1x256 .f32) :
    k0_pay3 (F := Ideal) x3 x2 x4 x5 x6
      = addf (addf (matmul dot_S1000x256_S256x256_S1000x256_1_0_0_1_n_n none (truncf .bf16 x3 bitsLt_bf16_f32) (shapeCast S256x256 x4 shapeCasts_S256x256_S256x256) (constant S1000x256 .f32 0x00000000#32))
                   (matmul dot_S1000x256_S256x256_S1000x256_1_0_0_1_n_n none (truncf .bf16 (multiReduction .add [1] S1000x256 x2 0x00000000#32 reduces_S1000x16x256_S1000x256 (.inl rfl) rfl) bitsLt_bf16_f32) (shapeCast S256x256 x5 shapeCasts_S256x256_S256x256) (constant S1000x256 .f32 0x00000000#32)))
          (broadcastTo S1000x256 (shapeCast S1x256 x6 shapeCasts_S1x256_S1x256) broadcasts_S1x256_S1000x256) := rfl

theorem featTree (x3 : FVec Ideal S1000x256 .f32) (p : FVec Ideal S1000x256 .f32) (x7 : FVec Ideal S256x256 .bf16) (x8 : FVec Ideal S1x256 .f32) :
    k0_pay1 (F := Ideal) x3 p x7 x8
      = addf x3 (addf (matmul dot_S1000x256_S256x256_S1000x256_1_0_0_1_n_n none (truncf .bf16 (mulf p (logistic p)) bitsLt_bf16_f32) (shapeCast S256x256 x7 shapeCasts_S256x256_S256x256) (constant S1000x256 .f32 0x00000000#32))
                      (broadcastTo S1000x256 (shapeCast S1x256 x8 shapeCasts_S1x256_S1x256) broadcasts_S1x256_S1000x256)) := rfl

/-! ## The body's results for the block of rows T·1000 … T·1000 + 999 -/

/-- The coordinates block at (r, c) is 'coordAt' at node T·1000 + r. -/
theorem coordBlock (X : Arr2 50000 3) (TR : Arr3 50000 16 3)
    (x0 : FVec Ideal S1000x3 .f32) (x1 : FVec Ideal S1000x16x3 .f32) (T : Nat)
    (h0 : ∀ (r : Fin 1000) (c : Fin 3) (n : Fin 50000), n.val = T * 1000 + r.val → x0 (ix2 r c) = X (ix2 n c))
    (h1 : ∀ (r : Fin 1000) (k : Fin 16) (c : Fin 3) (n : Fin 50000), n.val = T * 1000 + r.val → x1 (ix3 r k c) = TR (ix3 n k c))
    (r : Fin 1000) (c : Fin 3) (n : Fin 50000) (hn : n.val = T * 1000 + r.val) :
    k0_pay2 (F := Ideal) x0 x1 (ix2 r c) = coordAt X TR n c := by
  rw [coordTree]
  show min upper (max lower (x0 (ix2 r c)))
      + Ideal.div (multiReduction .add [1] S1000x3 (minimumf (broadcast S1000x16x3 (Scalar.ofBits .f32 0x447A0000#32)) (maximumf (broadcast S1000x16x3 (Scalar.ofBits .f32 0xC47A0000#32)) x1)) 0x00000000#32 reduces_S1000x16x3_S1000x3 (.inl rfl) rfl (ix2 r c)) sixteen = _
  rw [neighbourSum3, h0 r c n hn]
  unfold coordAt clamp
  refine congrArg (fun s => _ + Ideal.div s sixteen) (Finset.sum_congr rfl fun k _ => ?_)
  show min upper (max lower (x1 (ix3 r k c))) = _
  rw [h1 r k c n hn]

/-- The hidden layer before its activation, at (r, k), is 'hiddenAt' at node T·1000 + r. -/
theorem hiddenBlock (HH : Arr2 50000 256) (E : Arr3 50000 16 256) (W1 : Arr2 512 256) (B1 : Arr1 256)
    (x3 : FVec Ideal S1000x256 .f32) (x2 : FVec Ideal S1000x16x256 .f32) (x4 x5 : FVec Ideal S256x256 .bf16) (x6 : FVec Ideal S1x256 .f32) (T : Nat)
    (h3 : ∀ (r : Fin 1000) (q : Fin 256) (n : Fin 50000), n.val = T * 1000 + r.val → x3 (ix2 r q) = HH (ix2 n q))
    (h2 : ∀ (r : Fin 1000) (s : Fin 16) (q : Fin 256) (n : Fin 50000), n.val = T * 1000 + r.val → x2 (ix3 r s q) = E (ix3 n s q))
    (h4 : ∀ (q k : Fin 256), x4 (ix2 q k) = W1 (ix2 (firstHalf q) k))
    (h5 : ∀ (q k : Fin 256), x5 (ix2 q k) = W1 (ix2 (secondHalf q) k))
    (h6 : ∀ k : Fin 256, x6 (ix2 (0 : Fin 1) k) = B1 (ix1 k))
    (r : Fin 1000) (k : Fin 256) (n : Fin 50000) (hn : n.val = T * 1000 + r.val) :
    k0_pay3 (F := Ideal) x3 x2 x4 x5 x6 (ix2 r k) = hiddenAt HH E W1 B1 n k := by
  rw [hiddenTree]
  show (matmul dot_S1000x256_S256x256_S1000x256_1_0_0_1_n_n none (truncf .bf16 x3 bitsLt_bf16_f32) (shapeCast S256x256 x4 shapeCasts_S256x256_S256x256) (constant (F := Ideal) S1000x256 .f32 0x00000000#32) (ix2 r k)
        + matmul dot_S1000x256_S256x256_S1000x256_1_0_0_1_n_n none (truncf .bf16 (multiReduction .add [1] S1000x256 x2 0x00000000#32 reduces_S1000x16x256_S1000x256 (.inl rfl) rfl) bitsLt_bf16_f32) (shapeCast S256x256 x5 shapeCasts_S256x256_S256x256) (constant (F := Ideal) S1000x256 .f32 0x00000000#32) (ix2 r k))
      + broadcastTo S1000x256 (shapeCast S1x256 x6 shapeCasts_S1x256_S1x256) broadcasts_S1x256_S1000x256 (ix2 r k) = _
  rw [productAt, productAt, biasAt, shapeCast_self, shapeCast_self, h6 k]
  unfold hiddenAt mailAt
  refine congrArg (· + B1 (ix1 k)) (congrArg₂ (· + ·) (Finset.sum_congr rfl fun q _ => ?_) (Finset.sum_congr rfl fun q _ => ?_))
  · show x3 (ix2 r q) * x4 (ix2 q k) = _
    rw [h3 r q n hn, h4 q k]
  · show multiReduction .add [1] S1000x256 x2 0x00000000#32 reduces_S1000x16x256_S1000x256 (.inl rfl) rfl (ix2 r q) * x5 (ix2 q k) = _
    rw [neighbourSum256, h5 q k]
    exact congrArg (· * W1 (ix2 (secondHalf q) k)) (Finset.sum_congr rfl fun s _ => h2 r s q n hn)

/-- The features block at (r, j) is 'featAt' at node T·1000 + r. -/
theorem featBlock (HH : Arr2 50000 256) (E : Arr3 50000 16 256) (W1 : Arr2 512 256) (B1 : Arr1 256) (W2 : Arr2 256 256) (B2 : Arr1 256)
    (x3 : FVec Ideal S1000x256 .f32) (x2 : FVec Ideal S1000x16x256 .f32) (x4 x5 : FVec Ideal S256x256 .bf16) (x6 : FVec Ideal S1x256 .f32)
    (x7 : FVec Ideal S256x256 .bf16) (x8 : FVec Ideal S1x256 .f32) (T : Nat)
    (h3 : ∀ (r : Fin 1000) (q : Fin 256) (n : Fin 50000), n.val = T * 1000 + r.val → x3 (ix2 r q) = HH (ix2 n q))
    (h2 : ∀ (r : Fin 1000) (s : Fin 16) (q : Fin 256) (n : Fin 50000), n.val = T * 1000 + r.val → x2 (ix3 r s q) = E (ix3 n s q))
    (h4 : ∀ (q k : Fin 256), x4 (ix2 q k) = W1 (ix2 (firstHalf q) k))
    (h5 : ∀ (q k : Fin 256), x5 (ix2 q k) = W1 (ix2 (secondHalf q) k))
    (h6 : ∀ k : Fin 256, x6 (ix2 (0 : Fin 1) k) = B1 (ix1 k))
    (h7 : ∀ (k j : Fin 256), x7 (ix2 k j) = W2 (ix2 k j))
    (h8 : ∀ j : Fin 256, x8 (ix2 (0 : Fin 1) j) = B2 (ix1 j))
    (r : Fin 1000) (j : Fin 256) (n : Fin 50000) (hn : n.val = T * 1000 + r.val) :
    k0_pay1 (F := Ideal) x3 (k0_pay3 (F := Ideal) x3 x2 x4 x5 x6) x7 x8 (ix2 r j) = featAt HH E W1 B1 W2 B2 n j := by
  rw [featTree]
  show x3 (ix2 r j)
      + (matmul dot_S1000x256_S256x256_S1000x256_1_0_0_1_n_n none (truncf .bf16 (mulf (k0_pay3 (F := Ideal) x3 x2 x4 x5 x6) (logistic (k0_pay3 (F := Ideal) x3 x2 x4 x5 x6))) bitsLt_bf16_f32) (shapeCast S256x256 x7 shapeCasts_S256x256_S256x256) (constant (F := Ideal) S1000x256 .f32 0x00000000#32) (ix2 r j)
        + broadcastTo S1000x256 (shapeCast S1x256 x8 shapeCasts_S1x256_S1x256) broadcasts_S1x256_S1000x256 (ix2 r j)) = _
  rw [productAt, biasAt, shapeCast_self, h8 j, h3 r j n hn]
  unfold featAt silu
  refine congrArg (fun s => HH (ix2 n j) + (s + B2 (ix1 j))) (Finset.sum_congr rfl fun k _ => ?_)
  show (k0_pay3 (F := Ideal) x3 x2 x4 x5 x6 (ix2 r k) * Ideal.logistic (k0_pay3 (F := Ideal) x3 x2 x4 x5 x6 (ix2 r k))) * x7 (ix2 k j) = _
  rw [hiddenBlock HH E W1 B1 x3 x2 x4 x5 x6 T h3 h2 h4 h5 h6 r k n hn, h7 k j]

end Cert.KernelIdeal.Block

end
-- ==== Proof.KernelArrays.lean ====
/-
  From one block to the whole arrays: what the kernel's run leaves in its two result arrays.

  The grid has fifty points. At point t the four node-indexed inputs (positions, translations, edge features, node
  features) and both results are cut at rows t·1000 … t·1000 + 999, every other axis whole; the five parameter inputs
  are taken whole at every point. What the region finds in the parameter inputs was written by the program before the
  region: the first-layer weight blocks are rows 0 … 255 and rows 256 … 511 of W1 (a slice, then a change of float
  format, which is the identity on extended reals), the second-layer weight block is W2, and each bias block is its
  bias as a single row.

  So every block the body loads at point t is the part of its argument array that the block lemmas ask for, the block
  the body writes back at point t is the block of rows t·1000 … of the layer's function of the argument arrays
  ('wrote_coord', 'wrote_feat'), and since row n lies in the block of point n / 1000 the fifty blocks cover each result
  array: after the run the first result array is 'coordArr' and the second 'featArr' of the arguments.
-/
import proofs.«126242_j15135464751166_1_alg».proof.Proof.Gen.KernelIdeal.Value
import proofs.«126242_j15135464751166_1_alg».proof.Proof.KernelBlock
import Idealize.ShloMosaic.Lib.StableHlo.Run
import Idealize.ShloMosaic.Lib.ValueLayout

noncomputable section

namespace Cert.KernelIdeal.Arrays

open Cert.KernelIdeal Cert.KernelIdeal.Gen Idealize.ShloMosaic Idealize.ShloMosaic.TcCoe Idealize.SL.Sem
open Idealize.ShloMosaic.StableHlo Idealize.ShloMosaic.ValueIdx Cert.Layer
open Idealize.ShloMosaic.Pipeline (Dat)

variable (m : (ℓ : Loc nD τ sig) → Buf (Elt Ideal) ℓ) (ρ : Dev nD → PrngReg)

/-! ## The grid's index maps, decided over the fifty points -/

/-- The node-indexed windows sit at block row t, block zero on every other axis. -/
theorem moving : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = t.val ∧ win0_3.index t (1 : Fin 2) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

/-- The parameter windows sit at block zero on both axes at every point. -/
theorem resident : ∀ t : Fin cfg0.N,
    win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

theorem point_lt (t : Fin cfg0.N) : t.val < 50 := lt_of_lt_of_eq t.isLt N_0

theorem zeros2 : (![0, 0] : Fin 2 → Nat) = fun _ => 0 := funext fun a => by fin_cases a <;> rfl
theorem zeros3 : (![0, 0, 0] : Fin 3 → Nat) = fun _ => 0 := funext fun a => by fin_cases a <;> rfl

/-! ## What the region finds in the parameter inputs -/

/-- The first weight block of the first layer is rows 0 … 255 of W1. -/
theorem firstW1_at (c : Dev nD) (q k : Fin 256) :
    (V m c main_v1 : S256x256.Idx → EReal) (ix2 q k) = (m ((c : Thread nD τ).loc main_arg4)) (ix2 (firstHalf q) k) := by
  have e : (V m c main_v1 : S256x256.Idx → EReal)
      = (truncf (F := Ideal) .bf16 (extractStridedSlice S256x256 ![0, 0] (m ((c : Thread nD τ).loc main_arg4)) slices_S512x256_S256x256_0_0) bitsLt_bf16_f32 : S256x256.Idx → EReal) := by
    dsimp only [Gen.V, Gen.hostOps0]; after_results
  rw [e]
  show extractStridedSlice S256x256 ![0, 0] (m ((c : Thread nD τ).loc main_arg4)) slices_S512x256_S256x256_0_0 (ix2 q k) = _
  exact extractStridedSlice_apply _ _ _ _ (ix2 (firstHalf q) k) (fun a => by
    match a with
    | ⟨0, _⟩ => show q.val = 0 + q.val; omega
    | ⟨1, _⟩ => show k.val = 0 + k.val; omega)

/-- The second weight block of the first layer is rows 256 … 511 of W1. -/
theorem secondW1_at (c : Dev nD) (q k : Fin 256) :
    (V m c main_v3 : S256x256.Idx → EReal) (ix2 q k) = (m ((c : Thread nD τ).loc main_arg4)) (ix2 (secondHalf q) k) := by
  have e : (V m c main_v3 : S256x256.Idx → EReal)
      = (truncf (F := Ideal) .bf16 (extractStridedSlice S256x256 ![256, 0] (m ((c : Thread nD τ).loc main_arg4)) slices_S512x256_S256x256_256_0) bitsLt_bf16_f32 : S256x256.Idx → EReal) := by
    dsimp only [Gen.V, Gen.hostOps0]; after_results
  rw [e]
  show extractStridedSlice S256x256 ![256, 0] (m ((c : Thread nD τ).loc main_arg4)) slices_S512x256_S256x256_256_0 (ix2 q k) = _
  exact extractStridedSlice_apply _ _ _ _ (ix2 (secondHalf q) k) (fun a => by
    match a with
    | ⟨0, _⟩ => show 256 + q.val = 256 + q.val; rfl
    | ⟨1, _⟩ => show k.val = 0 + k.val; omega)

/-- The weight block of the second layer is W2. -/
theorem w2_at (c : Dev nD) (k j : Fin 256) :
    (V m c main_v4 : S256x256.Idx → EReal) (ix2 k j) = (m ((c : Thread nD τ).loc main_arg6)) (ix2 k j) := by
  have e : (V m c main_v4 : S256x256.Idx → EReal) = (truncf (F := Ideal) .bf16 (m ((c : Thread nD τ).loc main_arg6)) bitsLt_bf16_f32 : S256x256.Idx → EReal) := by
    dsimp only [Gen.V, Gen.hostOps0]; after_results
  rw [e]
  rfl

/-- The first bias as one row. -/
theorem b1_at (c : Dev nD) (k : Fin 256) :
    (V m c main_v5 : S1x256.Idx → EReal) (ix2 (0 : Fin 1) k) = (m ((c : Thread nD τ).loc main_arg5)) (ix1 k) := by
  have e : (V m c main_v5 : S1x256.Idx → EReal) = shapeCast S1x256 (m ((c : Thread nD τ).loc main_arg5)) shapeCasts_S256_S1x256 := by
    dsimp only [Gen.V, Gen.hostOps0]; after_results; rfl
  rw [e]
  exact shapeCast_a_1a_apply (a := 256) _ shapeCasts_S256_S1x256 0 k

/-- The second bias as one row. -/
theorem b2_at (c : Dev nD) (j : Fin 256) :
    (V m c main_v6 : S1x256.Idx → EReal) (ix2 (0 : Fin 1) j) = (m ((c : Thread nD τ).loc main_arg7)) (ix1 j) := by
  have e : (V m c main_v6 : S1x256.Idx → EReal) = shapeCast S1x256 (m ((c : Thread nD τ).loc main_arg7)) shapeCasts_S256_S1x256 := by
    dsimp only [Gen.V, Gen.hostOps0]; after_results; rfl
  rw [e]
  exact shapeCast_a_1a_apply (a := 256) _ shapeCasts_S256_S1x256 0 j

/-! ## The blocks the body loads at point t -/

theorem block_x (c : Dev nD) (t : Fin cfg0.N) (r : Fin 1000) (cc : Fin 3) (n : Fin 50000) (hn : n.val = t.val * 1000 + r.val) :
    iblk m c 0 t (ix2 r cc) = (m ((c : Thread nD τ).loc main_arg0)) (ix2 n cc) := by
  obtain ⟨e0, e1, -⟩ := moving t
  show V m c main_arg0 (((cfg0.win 0).blk t).view.emb (ix2 r cc)) = _
  rw [V_main_arg0]
  refine congrArg (m ((c : Thread nD τ).loc main_arg0)) (funext fun a => Fin.ext ?_)
  match a with
  | ⟨0, _⟩ => show win0_0.index t (0 : Fin 2) * 1000 + 1 * r.val = n.val; omega
  | ⟨1, _⟩ => show win0_0.index t (1 : Fin 2) * 3 + 1 * cc.val = cc.val; omega

theorem block_trans (c : Dev nD) (t : Fin cfg0.N) (r : Fin 1000) (k : Fin 16) (cc : Fin 3) (n : Fin 50000) (hn : n.val = t.val * 1000 + r.val) :
    iblk m c 1 t (ix3 r k cc) = (m ((c : Thread nD τ).loc main_arg1)) (ix3 n k cc) := by
  obtain ⟨-, -, e0, e1, e2, -⟩ := moving t
  show V m c main_arg1 (((cfg0.win 1).blk t).view.emb (ix3 r k cc)) = _
  rw [V_main_arg1]
  refine congrArg (m ((c : Thread nD τ).loc main_arg1)) (funext fun a => Fin.ext ?_)
  match a with
  | ⟨0, _⟩ => show win0_1.index t (0 : Fin 3) * 1000 + 1 * r.val = n.val; omega
  | ⟨1, _⟩ => show win0_1.index t (1 : Fin 3) * 16 + 1 * k.val = k.val; omega
  | ⟨2, _⟩ => show win0_1.index t (2 : Fin 3) * 3 + 1 * cc.val = cc.val; omega

theorem block_edge (c : Dev nD) (t : Fin cfg0.N) (r : Fin 1000) (s : Fin 16) (q : Fin 256) (n : Fin 50000) (hn : n.val = t.val * 1000 + r.val) :
    iblk m c 2 t (ix3 r s q) = (m ((c : Thread nD τ).loc main_arg2)) (ix3 n s q) := by
  obtain ⟨-, -, -, -, -, e0, e1, e2, -⟩ := moving t
  show V m c main_arg2 (((cfg0.win 2).blk t).view.emb (ix3 r s q)) = _
  rw [V_main_arg2]
  refine congrArg (m ((c : Thread nD τ).loc main_arg2)) (funext fun a => Fin.ext ?_)
  match a with
  | ⟨0, _⟩ => show win0_2.index t (0 : Fin 3) * 1000 + 1 * r.val = n.val; omega
  | ⟨1, _⟩ => show win0_2.index t (1 : Fin 3) * 16 + 1 * s.val = s.val; omega
  | ⟨2, _⟩ => show win0_2.index t (2 : Fin 3) * 256 + 1 * q.val = q.val; omega

theorem block_hh (c : Dev nD) (t : Fin cfg0.N) (r : Fin 1000) (q : Fin 256) (n : Fin 50000) (hn : n.val = t.val * 1000 + r.val) :
    iblk m c 3 t (ix2 r q) = (m ((c : Thread nD τ).loc main_arg3)) (ix2 n q) := by
  obtain ⟨-, -, -, -, -, -, -, -, e0, e1, -⟩ := moving t
  show V m c main_arg3 (((cfg0.win 3).blk t).view.emb (ix2 r q)) = _
  rw [V_main_arg3]
  refine congrArg (m ((c : Thread nD τ).loc main_arg3)) (funext fun a => Fin.ext ?_)
  match a with
  | ⟨0, _⟩ => show win0_3.index t (0 : Fin 2) * 1000 + 1 * r.val = n.val; omega
  | ⟨1, _⟩ => show win0_3.index t (1 : Fin 2) * 256 + 1 * q.val = q.val; omega

theorem block_w1a (c : Dev nD) (t : Fin cfg0.N) (q k : Fin 256) :
    iblk m c 4 t (ix2 q k) = (m ((c : Thread nD τ).loc main_arg4)) (ix2 (firstHalf q) k) := by
  obtain ⟨e0, e1, -⟩ := resident t
  have he : ((cfg0.win 4).blk t).view.emb (ix2 q k) = ix2 q k := funext fun a => Fin.ext (by
    match a with
    | ⟨0, _⟩ => show win0_4.index t (0 : Fin 2) * 256 + 1 * q.val = q.val; omega
    | ⟨1, _⟩ => show win0_4.index t (1 : Fin 2) * 256 + 1 * k.val = k.val; omega)
  show V m c main_v1 (((cfg0.win 4).blk t).view.emb (ix2 q k)) = _
  rw [he]
  exact firstW1_at m c q k

theorem block_w1b (c : Dev nD) (t : Fin cfg0.N) (q k : Fin 256) :
    iblk m c 5 t (ix2 q k) = (m ((c : Thread nD τ).loc main_arg4)) (ix2 (secondHalf q) k) := by
  obtain ⟨-, -, e0, e1, -⟩ := resident t
  have he : ((cfg0.win 5).blk t).view.emb (ix2 q k) = ix2 q k := funext fun a => Fin.ext (by
    match a with
    | ⟨0, _⟩ => show win0_5.index t (0 : Fin 2) * 256 + 1 * q.val = q.val; omega
    | ⟨1, _⟩ => show win0_5.index t (1 : Fin 2) * 256 + 1 * k.val = k.val; omega)
  show V m c main_v3 (((cfg0.win 5).blk t).view.emb (ix2 q k)) = _
  rw [he]
  exact secondW1_at m c q k

theorem block_b1 (c : Dev nD) (t : Fin cfg0.N) (k : Fin 256) :
    iblk m c 6 t (ix2 (0 : Fin 1) k) = (m ((c : Thread nD τ).loc main_arg5)) (ix1 k) := by
  obtain ⟨-, -, -, -, e0, e1, -⟩ := resident t
  have he : ((cfg0.win 6).blk t).view.emb (ix2 (0 : Fin 1) k) = ix2 (0 : Fin 1) k := funext fun a => Fin.ext (by
    match a with
    | ⟨0, _⟩ => show win0_6.index t (0 : Fin 2) * 1 + 1 * 0 = 0; omega
    | ⟨1, _⟩ => show win0_6.index t (1 : Fin 2) * 256 + 1 * k.val = k.val; omega)
  show V m c main_v5 (((cfg0.win 6).blk t).view.emb (ix2 (0 : Fin 1) k)) = _
  rw [he]
  exact b1_at m c k

theorem block_w2 (c : Dev nD) (t : Fin cfg0.N) (k j : Fin 256) :
    iblk m c 7 t (ix2 k j) = (m ((c : Thread nD τ).loc main_arg6)) (ix2 k j) := by
  obtain ⟨-, -, -, -, -, -, e0, e1, -⟩ := resident t
  have he : ((cfg0.win 7).blk t).view.emb (ix2 k j) = ix2 k j := funext fun a => Fin.ext (by
    match a with
    | ⟨0, _⟩ => show win0_7.index t (0 : Fin 2) * 256 + 1 * k.val = k.val; omega
    | ⟨1, _⟩ => show win0_7.index t (1 : Fin 2) * 256 + 1 * j.val = j.val; omega)
  show V m c main_v4 (((cfg0.win 7).blk t).view.emb (ix2 k j)) = _
  rw [he]
  exact w2_at m c k j

theorem block_b2 (c : Dev nD) (t : Fin cfg0.N) (j : Fin 256) :
    iblk m c 8 t (ix2 (0 : Fin 1) j) = (m ((c : Thread nD τ).loc main_arg7)) (ix1 j) := by
  obtain ⟨-, -, -, -, -, -, -, -, e0, e1⟩ := resident t
  have he : ((cfg0.win 8).blk t).view.emb (ix2 (0 : Fin 1) j) = ix2 (0 : Fin 1) j := funext fun a => Fin.ext (by
    match a with
    | ⟨0, _⟩ => show win0_8.index t (0 : Fin 2) * 1 + 1 * 0 = 0; omega
    | ⟨1, _⟩ => show win0_8.index t (1 : Fin 2) * 256 + 1 * j.val = j.val; omega)
  show V m c main_v6 (((cfg0.win 8).blk t).view.emb (ix2 (0 : Fin 1) j)) = _
  rw [he]
  exact b2_at m c j

/-! ## What point t writes back -/

/-- The body's coordinates at local entry y of point t are the layer's at the array entry under it. -/
theorem coord_point (c : Dev nD) (t : Fin cfg0.N) (y : S1000x3.Idx) :
    k0_pay2 (F := Ideal) (iblk m c 0 t) (iblk m c 1 t) y
      = coordArr (m ((c : Thread nD τ).loc main_arg0)) (m ((c : Thread nD τ).loc main_arg1)) (((cfg0.win 9).blk t).view.emb y) := by
  obtain ⟨r, cc, rfl⟩ : ∃ (r : Fin 1000) (cc : Fin 3), y = ix2 r cc := ⟨y 0, y 1, eq_ix2 y⟩
  obtain ⟨-, -, -, -, -, -, -, -, -, -, e0, e1, -⟩ := moving t
  have ht := point_lt t
  have hr := r.isLt
  have he : ((cfg0.win 9).blk t).view.emb (ix2 r cc) = ix2 (⟨t.val * 1000 + r.val, by omega⟩ : Fin 50000) cc :=
    funext fun a => Fin.ext (by
      match a with
      | ⟨0, _⟩ => show win0_9.index t (0 : Fin 2) * 1000 + 1 * r.val = t.val * 1000 + r.val; omega
      | ⟨1, _⟩ => show win0_9.index t (1 : Fin 2) * 3 + 1 * cc.val = cc.val; omega)
  rw [he, coordArr_apply]
  exact Block.coordBlock (m ((c : Thread nD τ).loc main_arg0)) (m ((c : Thread nD τ).loc main_arg1)) (iblk m c 0 t) (iblk m c 1 t) t.val
    (fun r cc n hn => block_x m c t r cc n hn) (fun r k cc n hn => block_trans m c t r k cc n hn) r cc _ rfl

/-- The body's features at local entry y of point t are the layer's at the array entry under it. -/
theorem feat_point (c : Dev nD) (t : Fin cfg0.N) (y : S1000x256.Idx) :
    k0_pay1 (F := Ideal) (iblk m c 3 t) (k0_pay3 (F := Ideal) (iblk m c 3 t) (iblk m c 2 t) (iblk m c 4 t) (iblk m c 5 t) (iblk m c 6 t)) (iblk m c 7 t) (iblk m c 8 t) y
      = featArr (m ((c : Thread nD τ).loc main_arg3)) (m ((c : Thread nD τ).loc main_arg2)) (m ((c : Thread nD τ).loc main_arg4)) (m ((c : Thread nD τ).loc main_arg5)) (m ((c : Thread nD τ).loc main_arg6)) (m ((c : Thread nD τ).loc main_arg7))
          (((cfg0.win 10).blk t).view.emb y) := by
  obtain ⟨r, j, rfl⟩ : ∃ (r : Fin 1000) (j : Fin 256), y = ix2 r j := ⟨y 0, y 1, eq_ix2 y⟩
  obtain ⟨-, -, -, -, -, -, -, -, -, -, -, -, e0, e1⟩ := moving t
  have ht := point_lt t
  have hr := r.isLt
  have he : ((cfg0.win 10).blk t).view.emb (ix2 r j) = ix2 (⟨t.val * 1000 + r.val, by omega⟩ : Fin 50000) j :=
    funext fun a => Fin.ext (by
      match a with
      | ⟨0, _⟩ => show win0_10.index t (0 : Fin 2) * 1000 + 1 * r.val = t.val * 1000 + r.val; omega
      | ⟨1, _⟩ => show win0_10.index t (1 : Fin 2) * 256 + 1 * j.val = j.val; omega)
  rw [he, featArr_apply]
  exact Block.featBlock (m ((c : Thread nD τ).loc main_arg3)) (m ((c : Thread nD τ).loc main_arg2)) (m ((c : Thread nD τ).loc main_arg4)) (m ((c : Thread nD τ).loc main_arg5)) (m ((c : Thread nD τ).loc main_arg6)) (m ((c : Thread nD τ).loc main_arg7))
    (iblk m c 3 t) (iblk m c 2 t) (iblk m c 4 t) (iblk m c 5 t) (iblk m c 6 t) (iblk m c 7 t) (iblk m c 8 t) t.val
    (fun r q n hn => block_hh m c t r q n hn) (fun r s q n hn => block_edge m c t r s q n hn)
    (fun q k => block_w1a m c t q k) (fun q k => block_w1b m c t q k) (fun k => block_b1 m c t k)
    (fun k j => block_w2 m c t k j) (fun j => block_b2 m c t j) r j _ rfl

/-- Point t writes back block t of the layer's coordinates. -/
theorem wrote_coord (c : Dev nD) (t : Fin cfg0.N) :
    (dats m 0 c).flushed 9 t = ((cfg0.win 9).blk t).view.read (Elt Ideal)
      (coordArr (m ((c : Thread nD τ).loc main_arg0)) (m ((c : Thread nD τ).loc main_arg1))) := by
  rw [Value.flushed9]
  unfold out0_9
  rw [View.canon_unit_zero zeros2]
  simp only [View.ld_unit_zero (S := S1000x3) zeros2, View.ld_unit_zero (S := S1000x16x3) zeros3]
  funext y
  exact coord_point m c t y

/-- Point t writes back block t of the layer's features. -/
theorem wrote_feat (c : Dev nD) (t : Fin cfg0.N) :
    (dats m 0 c).flushed 10 t = ((cfg0.win 10).blk t).view.read (Elt Ideal)
      (featArr (m ((c : Thread nD τ).loc main_arg3)) (m ((c : Thread nD τ).loc main_arg2)) (m ((c : Thread nD τ).loc main_arg4)) (m ((c : Thread nD τ).loc main_arg5)) (m ((c : Thread nD τ).loc main_arg6)) (m ((c : Thread nD τ).loc main_arg7))) := by
  rw [Value.flushed10]
  unfold out0_10
  rw [View.canon_unit_zero zeros2]
  simp only [View.ld_unit_zero (S := S1000x256) zeros2, View.ld_unit_zero (S := S1000x16x256) zeros3,
    View.ld_unit_zero (S := S256x256) zeros2, View.ld_unit_zero (S := S1x256) zeros2]
  funext y
  exact feat_point m c t y

/-! ## The fifty blocks cover each result array -/

theorem mem_block9 (t : Fin cfg0.N) (i : S50000x3.Idx) :
    i ∈ ((cfg0.win 9).blk t).view.set ↔ ∀ a : Fin 2, win0_9.index t a * S1000x3.size a ≤ (i a).val ∧ (i a).val < win0_9.index t a * S1000x3.size a + S1000x3.size a := by
  show i ∈ ((View.whole main_v7_0).slice (win0_9.rect t)).set ↔ _
  rw [View.set_slice_whole, Rect.mem_set_unit]
  exact Iff.rfl

theorem mem_block10 (t : Fin cfg0.N) (i : S50000x256.Idx) :
    i ∈ ((cfg0.win 10).blk t).view.set ↔ ∀ a : Fin 2, win0_10.index t a * S1000x256.size a ≤ (i a).val ∧ (i a).val < win0_10.index t a * S1000x256.size a + S1000x256.size a := by
  show i ∈ ((View.whole main_v7_1).slice (win0_10.rect t)).set ↔ _
  rw [View.set_slice_whole, Rect.mem_set_unit]
  exact Iff.rfl

/-- The point whose block holds rows v·… is v / 1000. -/
theorem point_of_row (v : Nat) (hv : v < 50000) : ∃ t : Fin cfg0.N, t.val = v / 1000 :=
  ⟨⟨v / 1000, by show v / 1000 < grid0.N; rw [N_0]; omega⟩, rfl⟩

theorem covered9 (i : S50000x3.Idx) :
    ∃ t : Fin cfg0.N, (cfg0.win 9).flush t = true ∧ i ∈ ((cfg0.win 9).blk t).view.set := by
  have hi0 : (i 0).val < 50000 := (i 0).isLt
  have hi1 : (i 1).val < 3 := (i 1).isLt
  obtain ⟨t, htv⟩ := point_of_row (i 0).val hi0
  obtain ⟨-, -, -, -, -, -, -, -, -, -, e0, e1, -⟩ := moving t
  refine ⟨t, flush0_9 t, ?_⟩
  rw [mem_block9]
  intro a
  match a with
  | ⟨0, _⟩ => show win0_9.index t (0 : Fin 2) * 1000 ≤ (i 0).val ∧ (i 0).val < win0_9.index t (0 : Fin 2) * 1000 + 1000; omega
  | ⟨1, _⟩ => show win0_9.index t (1 : Fin 2) * 3 ≤ (i 1).val ∧ (i 1).val < win0_9.index t (1 : Fin 2) * 3 + 3; omega

theorem covered10 (i : S50000x256.Idx) :
    ∃ t : Fin cfg0.N, (cfg0.win 10).flush t = true ∧ i ∈ ((cfg0.win 10).blk t).view.set := by
  have hi0 : (i 0).val < 50000 := (i 0).isLt
  have hi1 : (i 1).val < 256 := (i 1).isLt
  obtain ⟨t, htv⟩ := point_of_row (i 0).val hi0
  obtain ⟨-, -, -, -, -, -, -, -, -, -, -, -, e0, e1⟩ := moving t
  refine ⟨t, flush0_10 t, ?_⟩
  rw [mem_block10]
  intro a
  match a with
  | ⟨0, _⟩ => show win0_10.index t (0 : Fin 2) * 1000 ≤ (i 0).val ∧ (i 0).val < win0_10.index t (0 : Fin 2) * 1000 + 1000; omega
  | ⟨1, _⟩ => show win0_10.index t (1 : Fin 2) * 256 ≤ (i 1).val ∧ (i 1).val < win0_10.index t (1 : Fin 2) * 256 + 256; omega

/-! ## The result arrays after the run -/

theorem coord_final (c : Dev nD) :
    (dats m 0 c).arrAt 9 cfg0.N = coordArr (m ((c : Thread nD τ).loc main_arg0)) (m ((c : Thread nD τ).loc main_arg1)) :=
  (dats m 0 c).arrAt_eq_of_cover 9 _ (fun t _ => wrote_coord m c t) covered9

theorem feat_final (c : Dev nD) :
    (dats m 0 c).arrAt 10 cfg0.N
      = featArr (m ((c : Thread nD τ).loc main_arg3)) (m ((c : Thread nD τ).loc main_arg2)) (m ((c : Thread nD τ).loc main_arg4)) (m ((c : Thread nD τ).loc main_arg5)) (m ((c : Thread nD τ).loc main_arg6)) (m ((c : Thread nD τ).loc main_arg7)) :=
  (dats m 0 c).arrAt_eq_of_cover 10 _ (fun t _ => wrote_feat m c t) covered10

/-- Every weakly fair execution of the kernel's program terminates with the first result array holding the layer's
    coordinates and the second the layer's features of the argument arrays, the arguments unchanged. -/
theorem run : θ_run defs (onTc (τ := τ) (main (F := Ideal))) ⟨m, fun _ => 0, ρ⟩ fun r => ∀ c : Dev nD,
      r.2.mem ((c : Thread nD τ).loc main_v7_0) = coordArr (m ((c : Thread nD τ).loc main_arg0)) (m ((c : Thread nD τ).loc main_arg1))
      ∧ r.2.mem ((c : Thread nD τ).loc main_v7_1)
          = featArr (m ((c : Thread nD τ).loc main_arg3)) (m ((c : Thread nD τ).loc main_arg2)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (coord_final m c), (h c).2.1.trans (feat_final m c), (h c).2.2⟩)
    (Value.run_blocks m ρ)

end Cert.KernelIdeal.Arrays

end
-- ==== Proof.RefLayer.lean ====
/-
  The reference computes the layer's two functions.

  Its coordinates result is read one operation at a time: both clips are 'clamp' (a minimum with the upper word of a
  maximum with the lower word), the sum over the neighbour axis starts from the word of zero, which is the number zero,
  and the quotient by the word of sixteen is the layer's.

  Its features result multiplies the concatenation [hh | mail] (512 columns) with the whole of W1. Column q of the
  concatenation is hh's column q when q < 256 and the mailbox's column q - 256 otherwise, so splitting the sum over the
  512 columns into its two halves ('sum_halves') gives the layer's hidden entry with the two halves of W1 apart. The
  reference spells silu as v · (1 / (1 + exp (-v))) with the word of 1.0 for both ones: that word is the number one, and
  the quotient is the logistic function by its definition.
-/
import proofs.«126242_j15135464751166_1_alg».proof.Proof.Gen.ReferenceIdeal.Read
import proofs.«126242_j15135464751166_1_alg».proof.Proof.Spec
import Idealize.ShloMosaic.PureOps.Ideal.Laws
import Idealize.ShloMosaic.Lib.Pipeline.Value
import Idealize.ShloMosaic.Lib.ValueIdx

noncomputable section

namespace Cert.ReferenceIdeal.Layer

open Cert.ReferenceIdeal Cert.ReferenceIdeal.Gen Cert.ReferenceIdeal.Read Idealize.ShloMosaic Idealize.ShloMosaic.ValueIdx Cert.Layer

/-! ## The coordinates -/

/-- The k-th term of the sum over the neighbour axis at (n, c) is entry (n, k, c). -/
theorem neighbour3 (n : Fin 50000) (c : Fin 3) (k : Fin 16) : idx_main_v2 (ix2 n c) k = ix3 n k c :=
  funext fun a => Fin.ext (by match a with | ⟨0, _⟩ => rfl | ⟨1, _⟩ => rfl | ⟨2, _⟩ => rfl)

/-- The clipped positions are the clamped positions. -/
theorem clip_x (x0 : (⟨S50000x3, .f32⟩ : BufTy).Contents (Elt Ideal)) (i : S50000x3.Idx) :
    val_main_v0 (F := Ideal) x0 i = clamp (x0 i) := by
  rw [val_main_v0_apply, val_main_call0_v4_apply, val_main_call0_v3_apply, val_main_cst_0_apply,
    val_main_call0_v2_apply, val_main_call0_v1_apply, val_main_call0_v0_apply, val_main_cst_apply]
  rfl

/-- The clipped translations are the clamped translations. -/
theorem clip_trans (x1 : (⟨S50000x16x3, .f32⟩ : BufTy).Contents (Elt Ideal)) (i : S50000x16x3.Idx) :
    val_main_v1 (F := Ideal) x1 i = clamp (x1 i) := by
  rw [val_main_v1_apply, val_main_call1_v4_apply, val_main_call1_v3_apply, val_main_cst_2_apply,
    val_main_call1_v2_apply, val_main_call1_v1_apply, val_main_call1_v0_apply, val_main_cst_1_apply]
  rfl

/-- The reference's first result is the layer's coordinates. -/
theorem coord_eq (x0 : (⟨S50000x3, .f32⟩ : BufTy).Contents (Elt Ideal)) (x1 : (⟨S50000x16x3, .f32⟩ : BufTy).Contents (Elt Ideal)) :
    val_main_v5 (F := Ideal) x0 x1 = coordArr x0 x1 := by
  funext i
  obtain ⟨n, c, rfl⟩ : ∃ (n : Fin 50000) (c : Fin 3), i = ix2 n c := ⟨i 0, i 1, eq_ix2 i⟩
  rw [coordArr_apply, val_main_v5_apply, val_main_v4_apply, val_main_v2_apply, val_main_v3_apply, val_main_cst_4_apply,
    val_main_cst_3_apply, clip_x]
  unfold coordAt
  show clamp (x0 (ix2 n c))
      + Ideal.div (Ideal.ofBits .f32 0x00000000#32 + ∑ k : Fin 16, val_main_v1 (F := Ideal) x1 (idx_main_v2 (ix2 n c) k)) sixteen = _
  rw [Ideal.ofBits_zero_f32, zero_add]
  refine congrArg (fun s => clamp (x0 (ix2 n c)) + Ideal.div s sixteen) (Finset.sum_congr rfl fun k _ => ?_)
  rw [clip_trans, neighbour3]

/-! ## The features -/

/-- The r-th term of the mailbox sum at (n, q) is entry (n, r, q). -/
theorem neighbour256 (n : Fin 50000) (q : Fin 256) (r : Fin 16) : idx_main_v6 (ix2 n q) r = ix3 n r q :=
  funext fun a => Fin.ext (by match a with | ⟨0, _⟩ => rfl | ⟨1, _⟩ => rfl | ⟨2, _⟩ => rfl)

/-- The summed edge features are the mailbox. -/
theorem mail_eq (x2 : (⟨S50000x16x256, .f32⟩ : BufTy).Contents (Elt Ideal)) (n : Fin 50000) (q : Fin 256) :
    val_main_v6 (F := Ideal) x2 (ix2 n q) = mailAt x2 n q := by
  rw [val_main_v6_apply, val_main_cst_5_apply]
  show Ideal.ofBits .f32 0x00000000#32 + ∑ r : Fin 16, x2 (idx_main_v6 (ix2 n q) r) = _
  rw [Ideal.ofBits_zero_f32, zero_add]
  unfold mailAt
  exact Finset.sum_congr rfl fun r _ => by rw [neighbour256]

/-- A column of the first half of the concatenation is the node features' column. -/
theorem cat_first (x2 : (⟨S50000x16x256, .f32⟩ : BufTy).Contents (Elt Ideal)) (x3 : (⟨S50000x256, .f32⟩ : BufTy).Contents (Elt Ideal))
    (n : Fin 50000) (q : Fin 256) :
    val_main_v7 (F := Ideal) x2 x3 (ix2 n (firstHalf q)) = x3 (ix2 n q) := by
  unfold val_main_v7
  exact concatenate_pair_apply_left (t := S50000x512) (s₁ := S50000x256) (s₂ := S50000x256) _ x3 (val_main_v6 (F := Ideal) x2) _
    (ix2 n (firstHalf q)) rfl (ix2 n q)
    (fun b => by match b with | ⟨0, _⟩ => rfl | ⟨1, _⟩ => rfl)

/-- A column of the second half of the concatenation is the mailbox's column. -/
theorem cat_second (x2 : (⟨S50000x16x256, .f32⟩ : BufTy).Contents (Elt Ideal)) (x3 : (⟨S50000x256, .f32⟩ : BufTy).Contents (Elt Ideal))
    (n : Fin 50000) (q : Fin 256) :
    val_main_v7 (F := Ideal) x2 x3 (ix2 n (secondHalf q)) = val_main_v6 (F := Ideal) x2 (ix2 n q) := by
  unfold val_main_v7
  exact concatenate_pair_apply_right (t := S50000x512) (s₁ := S50000x256) (s₂ := S50000x256) _ x3 (val_main_v6 (F := Ideal) x2) _
    (ix2 n (secondHalf q)) rfl rfl (ix2 n q)
    (fun b hb => by
      match b with
      | ⟨0, _⟩ => rfl
      | ⟨1, _⟩ => exact (hb (Fin.ext rfl)).elim)
    (by show q.val + 256 = 256 + q.val; omega)

/-- The operand entries the first product pairs at (n, k) with column q. -/
theorem left1 (n : Fin 50000) (k : Fin 256) (q : Fin 512) : lidx_main_v8 (ix2 n k) q = ix2 n q :=
  funext fun a => Fin.ext (by match a with | ⟨0, _⟩ => rfl | ⟨1, _⟩ => rfl)
theorem right1 (n : Fin 50000) (k : Fin 256) (q : Fin 512) : ridx_main_v8 (ix2 n k) q = ix2 q k :=
  funext fun a => Fin.ext (by match a with | ⟨0, _⟩ => rfl | ⟨1, _⟩ => rfl)

/-- The hidden layer before its activation. -/
theorem hidden_eq (x2 : (⟨S50000x16x256, .f32⟩ : BufTy).Contents (Elt Ideal)) (x3 : (⟨S50000x256, .f32⟩ : BufTy).Contents (Elt Ideal))
    (x4 : (⟨S512x256, .f32⟩ : BufTy).Contents (Elt Ideal)) (x5 : (⟨S256, .f32⟩ : BufTy).Contents (Elt Ideal)) (n : Fin 50000) (k : Fin 256) :
    val_main_v11 (F := Ideal) x2 x3 x4 x5 (ix2 n k) = hiddenAt x3 x2 x4 x5 n k := by
  rw [val_main_v11_apply, val_main_v8_apply, val_main_v10_apply, val_main_v9_apply]
  show (∑ q : Fin 512, val_main_v7 (F := Ideal) x2 x3 (lidx_main_v8 (ix2 n k) q) * x4 (ridx_main_v8 (ix2 n k) q))
      + x5 (idx_main_v9 (idx_main_v10 (ix2 n k))) = _
  rw [sum_halves]
  unfold hiddenAt
  refine congrArg₂ (· + ·) (congrArg₂ (· + ·) (Finset.sum_congr rfl fun q _ => ?_) (Finset.sum_congr rfl fun q _ => ?_)) ?_
  · rw [left1, right1, cat_first]
  · rw [left1, right1, cat_second, mail_eq]
  · exact congrArg x5 (funext fun a => Fin.ext (by match a with | ⟨0, _⟩ => rfl))

/-- The activated hidden layer. -/
theorem act_eq (x2 : (⟨S50000x16x256, .f32⟩ : BufTy).Contents (Elt Ideal)) (x3 : (⟨S50000x256, .f32⟩ : BufTy).Contents (Elt Ideal))
    (x4 : (⟨S512x256, .f32⟩ : BufTy).Contents (Elt Ideal)) (x5 : (⟨S256, .f32⟩ : BufTy).Contents (Elt Ideal)) (n : Fin 50000) (k : Fin 256) :
    val_main_v12 (F := Ideal) x2 x3 x4 x5 (ix2 n k) = silu (hiddenAt x3 x2 x4 x5 n k) := by
  rw [val_main_v12_apply, val_main_call2_v5_apply, val_main_call2_v4_apply, val_main_call2_cst_0_apply,
    val_main_call2_v3_apply, val_main_call2_v2_apply, val_main_call2_cst_apply, val_main_call2_v1_apply,
    val_main_call2_v0_apply, hidden_eq]
  show hiddenAt x3 x2 x4 x5 n k
      * Ideal.div (Ideal.ofBits .f32 0x3F800000#32) (Ideal.ofBits .f32 0x3F800000#32 + Ideal.exp (-(hiddenAt x3 x2 x4 x5 n k))) = _
  rw [one_word]
  rfl

/-- The operand entries the second product pairs at (n, j) with column k. -/
theorem left2 (n : Fin 50000) (j : Fin 256) (k : Fin 256) : lidx_main_v13 (ix2 n j) k = ix2 n k :=
  funext fun a => Fin.ext (by match a with | ⟨0, _⟩ => rfl | ⟨1, _⟩ => rfl)
theorem right2 (n : Fin 50000) (j : Fin 256) (k : Fin 256) : ridx_main_v13 (ix2 n j) k = ix2 k j :=
  funext fun a => Fin.ext (by match a with | ⟨0, _⟩ => rfl | ⟨1, _⟩ => rfl)

/-- The reference's second result is the layer's features. -/
theorem feat_eq (x2 : (⟨S50000x16x256, .f32⟩ : BufTy).Contents (Elt Ideal)) (x3 : (⟨S50000x256, .f32⟩ : BufTy).Contents (Elt Ideal))
    (x4 : (⟨S512x256, .f32⟩ : BufTy).Contents (Elt Ideal)) (x5 : (⟨S256, .f32⟩ : BufTy).Contents (Elt Ideal))
    (x6 : (⟨S256x256, .f32⟩ : BufTy).Contents (Elt Ideal)) (x7 : (⟨S256, .f32⟩ : BufTy).Contents (Elt Ideal)) :
    val_main_v17 (F := Ideal) x2 x3 x4 x5 x6 x7 = featArr x3 x2 x4 x5 x6 x7 := by
  funext i
  obtain ⟨n, j, rfl⟩ : ∃ (n : Fin 50000) (j : Fin 256), i = ix2 n j := ⟨i 0, i 1, eq_ix2 i⟩
  rw [featArr_apply, val_main_v17_apply, val_main_v16_apply, val_main_v13_apply, val_main_v15_apply, val_main_v14_apply]
  unfold featAt
  show x3 (ix2 n j)
      + ((∑ k : Fin 256, val_main_v12 (F := Ideal) x2 x3 x4 x5 (lidx_main_v13 (ix2 n j) k) * x6 (ridx_main_v13 (ix2 n j) k))
        + x7 (idx_main_v14 (idx_main_v15 (ix2 n j)))) = _
  refine congrArg (x3 (ix2 n j) + ·) (congrArg₂ (· + ·) (Finset.sum_congr rfl fun k _ => ?_) ?_)
  · rw [left2, right2, act_eq]
  · exact congrArg x7 (funext fun a => Fin.ext (by match a with | ⟨0, _⟩ => rfl))

end Cert.ReferenceIdeal.Layer

end
-- ==== Proof.lean ====
/-
  A message-passing layer over 50000 nodes with sixteen incoming messages each, as a kernel and as its jnp reference:
  equal results on the extended reals.

  The layer ('Cert.Layer', Proof/Spec.lean) returns new node coordinates
      coord[n, c] = clamp x[n, c] + (Σ_{k<16} clamp trans[n, k, c]) / 16,          clamp v = min 1000 (max (-1000) v),
  and new node features
      h[n, j] = hh[n, j] + ((Σ_{k<256} silu p[n, k] · W2[k, j]) + b2[j]),           silu v = v · logistic v,
      p[n, k] = (Σ_{q<256} hh[n, q] · W1[q, k] + Σ_{q<256} mail[n, q] · W1[256 + q, k]) + b1[k],
      mail[n, q] = Σ_{r<16} edge[n, r, q].

  The kernel walks the nodes in fifty blocks of a thousand rows. Its body computes, for one block, exactly these
  expressions with the two halves of W1 as two separate 256 × 256 operands (Proof/KernelBlock.lean: a sum over the
  neighbour axis, three matrix products into a zero accumulator and two broadcast bias rows, read entry by entry), and
  the fifty blocks it writes back tile each result array (Proof/KernelArrays.lean). The weights pass through a narrower
  float format on their way into the products; on extended reals a change of format is the identity.

  The reference forms the concatenation [hh | mail] and multiplies it with the whole of W1. A sum over the 512 columns
  of the concatenation is the sum over its first 256 columns plus the sum over its last 256, which is the kernel's
  split form; it spells the logistic function as 1 / (1 + exp (-v)), which is its definition (Proof/RefLayer.lean).
  Regrouping one finite sum is valid for every extended real, so the finiteness of the inputs is never used: the
  equality holds entry by entry for all inputs.

  Both idealized programs are the printed programs read at the ideal instance with no operation rewritten, so the
  statement that the idealized kernel is the kernel's sanctioned idealization has nothing to show. The three programs
  run to completion with their argument arrays unchanged: for the two kernel programs this is the generated frame, and
  for the reference its generated run with the results dropped.
-/
import proofs.«126242_j15135464751166_1_alg».proof.Defs
import proofs.«126242_j15135464751166_1_alg».proof.Proof.Gen.Kernel
import proofs.«126242_j15135464751166_1_alg».proof.Proof.Gen.Kernel.Skeleton
import proofs.«126242_j15135464751166_1_alg».proof.Proof.Gen.Kernel.Launch
import proofs.«126242_j15135464751166_1_alg».proof.Proof.Gen.Kernel.Points
import proofs.«126242_j15135464751166_1_alg».proof.Proof.Gen.Kernel.Frame
import proofs.«126242_j15135464751166_1_alg».proof.Proof.Gen.KernelIdeal
import proofs.«126242_j15135464751166_1_alg».proof.Proof.Gen.KernelIdeal.Skeleton
import proofs.«126242_j15135464751166_1_alg».proof.Proof.Gen.KernelIdeal.Launch
import proofs.«126242_j15135464751166_1_alg».proof.Proof.Gen.KernelIdeal.Points
import proofs.«126242_j15135464751166_1_alg».proof.Proof.Gen.KernelIdeal.Frame
import proofs.«126242_j15135464751166_1_alg».proof.Proof.Gen.ReferenceIdeal
import proofs.«126242_j15135464751166_1_alg».proof.Proof.Gen.Pre_finite_inputs
import proofs.«126242_j15135464751166_1_alg».proof.Proof.Gen.KernelIdeal.Value
import proofs.«126242_j15135464751166_1_alg».proof.Proof.Gen.ReferenceIdeal.Run
import proofs.«126242_j15135464751166_1_alg».proof.Proof.Gen.ReferenceIdeal.Read
import proofs.«126242_j15135464751166_1_alg».proof.Proof.Spec
import proofs.«126242_j15135464751166_1_alg».proof.Proof.KernelArrays
import proofs.«126242_j15135464751166_1_alg».proof.Proof.RefLayer
import Idealize.ShloMosaic.Adequacy
import Idealize.ShloMosaic.Init

noncomputable section

namespace Cert.Proof

open Idealize.ShloMosaic Idealize.ShloMosaic.TcCoe Idealize.SL.Sem Cert.Layer

/-- The kernel's program runs to completion and leaves its arguments as they were. -/
theorem frame_kernel : Cert.frame_Kernel := fun m ρ _ => Cert.Kernel.Gen.frame m ρ

/-- So does the kernel's program read on extended reals. -/
theorem frame_kernel_ideal : Cert.frame_KernelIdeal := fun m ρ _ => Cert.KernelIdeal.Gen.frame m ρ

/-- The reference's run gives each result as a term of the arguments and leaves the arguments as they were; the frame is
    that run with the two results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- No operation of the kernel was rewritten on the way to extended reals. -/
theorem preserves : Cert.preserves_Kernel_KernelIdeal := trivial

/-- From memories that agree on the eight arguments, the kernel's two result arrays and the reference's two results are
    the layer's coordinates and features of those arguments. -/
theorem algebraic : Cert.algebraic_KernelIdeal_ReferenceIdeal := by
  intro m ρ m' ρ' _ hagree
  refine ⟨fun c => coordArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => featArr (m ((c.tc : Thread Cert.KernelIdeal.nD Cert.KernelIdeal.τ).loc Cert.KernelIdeal.main_arg3)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1]
    exact (Cert.ReferenceIdeal.Read.val_main_v5_eq _ _).trans (Cert.ReferenceIdeal.Layer.coord_eq _ _)
  · rw [(hagree c).2.2.1, (hagree c).2.2.2.1, (hagree c).2.2.2.2.1, (hagree c).2.2.2.2.2.1,
      (hagree c).2.2.2.2.2.2.1, (hagree c).2.2.2.2.2.2.2]
    exact (Cert.ReferenceIdeal.Read.val_main_v17_eq _ _ _ _ _ _).trans (Cert.ReferenceIdeal.Layer.feat_eq _ _ _ _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
